-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384x1024 : Shape := ⟨2, ![16384, 1024]⟩
abbrev S16383 : Shape := ⟨1, ![16383]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_

variable [Facts]

def fn {F : FTy → Type} [FloatOps F] (main_arg0 : FVec F S4096x16384 .f32) (main_arg1 : FVec F S4096x16384 .f32) (main_arg2 : FVec F S16384x1024 .f32) (main_arg3 : IVec S16383 32) (main_arg4 : IVec S16383 32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  main_v13
-- ==== Kernel.lean ====
abbrev S4096x16384 : Shape := ⟨2, ![4096, 16384]⟩
abbrev S16384x1024 : Shape := ⟨2, ![16384, 1024]⟩
abbrev S16383 : Shape := ⟨1, ![16383]⟩
abbrev S2x1x1 : Shape := ⟨3, ![2, 1, 1]⟩
abbrev S2048x256 : Shape := ⟨2, ![2048, 256]⟩
abbrev S1x1x1 : Shape := ⟨3, ![1, 1, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩
abbrev S16383x1 : Shape := ⟨2, ![16383, 1]⟩
abbrev S16383x1024 : Shape := ⟨2, ![16383, 1024]⟩

abbrev nBuf : Space → Nat
  | .hbm => 37
  | .vmem => 6
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x1024, .f32⟩
  | .hbm, ⟨3, _⟩ => ⟨S16383, .i32⟩
  | .hbm, ⟨4, _⟩ => ⟨S16383, .i32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i32⟩
  | .hbm, ⟨11, _⟩ => ⟨S16383, .i32⟩
  | .hbm, ⟨12, _⟩ => ⟨S16383, .i1⟩
  | .hbm, ⟨13, _⟩ => ⟨S_, .i32⟩
  | .hbm, ⟨14, _⟩ => ⟨S16383, .i32⟩
  | .hbm, ⟨15, _⟩ => ⟨S16383, .i32⟩
  | .hbm, ⟨16, _⟩ => ⟨S16383, .i32⟩
  | .hbm, ⟨17, _⟩ => ⟨S16383x1, .i32⟩
  | .hbm, ⟨18, _⟩ => ⟨S16383x1024, .f32⟩
  | .hbm, ⟨19, _⟩ => ⟨S_, .i32⟩
  | .hbm, ⟨20, _⟩ => ⟨S16383, .i32⟩
  | .hbm, ⟨21, _⟩ => ⟨S16383, .i1⟩
  | .hbm, ⟨22, _⟩ => ⟨S_, .i32⟩
  | .hbm, ⟨23, _⟩ => ⟨S16383, .i32⟩
  | .hbm, ⟨24, _⟩ => ⟨S16383, .i32⟩
  | .hbm, ⟨25, _⟩ => ⟨S16383, .i32⟩
  | .hbm, ⟨26, _⟩ => ⟨S16383x1, .i32⟩
  | .hbm, ⟨27, _⟩ => ⟨S16383x1024, .f32⟩
  | .hbm, ⟨28, _⟩ => ⟨S16383x1024, .f32⟩
  | .hbm, ⟨29, _⟩ => ⟨S16383x1024, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S1x1x1, .f32⟩
  | .local _ .vmem, ⟨5, _⟩ => ⟨S1x1x1, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  bcast_S_S16383 : S_.BroadcastsInDim S16383 (![] : Fin 0 → Fin S16383.rank)
  bcast_S16383_S16383x1_0 : S16383.BroadcastsInDim S16383x1 (![0] : Fin 1 → Fin S16383x1.rank)
  reducesTo_S16383x1024_S_d0_1 : S16383x1024.ReducesTo [0, 1] S_
  gather_S16384x1024_S16383x1_S16383x1024_1_0_n_n_0_1_11024_wf : GatherDims.WF S16384x1024 S16383x1 S16383x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x16384.size a
  hwx0_0 : ∀ i : grid0.Coords, EltTy.bits .f32 = 32 ∨ (Rect.block (s := S4096x16384) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S4096x16384.size a
  hwx0_1 : ∀ i : grid0.Coords, EltTy.bits .f32 = 32 ∨ (Rect.block (s := S4096x16384) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

def gather_S16384x1024_S16383x1_S16383x1024_1_0_n_n_0_1_11024 : GatherDims S16384x1024 S16383x1 S16383x1024 where
  offsetDims := [1]
  collapsedSliceDims := [0]
  operandBatchingDims := []
  startIndicesBatchingDims := []
  startIndexMap := [0]
  indexVectorDim := 1
  sliceSizes := ![1, 1024]
  wf := gather_S16384x1024_S16383x1_S16383x1024_1_0_n_n_0_1_11024_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384x1024 : Shape := ⟨2, ![16384, 1024]⟩
abbrev S16383 : Shape := ⟨1, ![16383]⟩
abbrev S_ : Shape := ⟨0, ![]⟩
abbrev S16383x1 : Shape := ⟨2, ![16383, 1]⟩
abbrev S16383x1024 : Shape := ⟨2, ![16383, 1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S4096x16384, .f32⟩
  | .hbm, ⟨2, _⟩ => ⟨S16384x1024, .f32⟩
  | .hbm, ⟨3, _⟩ => ⟨S16383, .i32⟩
  | .hbm, ⟨4, _⟩ => ⟨S16383, .i32⟩
  | .hbm, ⟨5, _⟩ => ⟨S_, .f32⟩
  | .hbm, ⟨6, _⟩ => ⟨S4096x16384, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x16384, .i1⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S4096x16384, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .i32⟩
  | .hbm, ⟨26, _⟩ => ⟨S16383, .i32⟩
  | .hbm, ⟨27, _⟩ => ⟨S16383, .i1⟩
  | .hbm, ⟨28, _⟩ => ⟨S_, .i32⟩
  | .hbm, ⟨29, _⟩ => ⟨S16383, .i32⟩
  | .hbm, ⟨30, _⟩ => ⟨S16383, .i32⟩
  | .hbm, ⟨31, _⟩ => ⟨S16383, .i32⟩
  | .hbm, ⟨32, _⟩ => ⟨S16383x1, .i32⟩
  | .hbm, ⟨33, _⟩ => ⟨S16383x1024, .f32⟩
  | .hbm, ⟨34, _⟩ => ⟨S_, .i32⟩
  | .hbm, ⟨35, _⟩ => ⟨S16383, .i32⟩
  | .hbm, ⟨36, _⟩ => ⟨S16383, .i1⟩
  | .hbm, ⟨37, _⟩ => ⟨S_, .i32⟩
  | .hbm, ⟨38, _⟩ => ⟨S16383, .i32⟩
  | .hbm, ⟨39, _⟩ => ⟨S16383, .i32⟩
  | .hbm, ⟨40, _⟩ => ⟨S16383, .i32⟩
  | .hbm, ⟨41, _⟩ => ⟨S16383x1, .i32⟩
  | .hbm, ⟨42, _⟩ => ⟨S16383x1024, .f32⟩
  | .hbm, ⟨43, _⟩ => ⟨S16383x1024, .f32⟩
  | .hbm, ⟨44, _⟩ => ⟨S16383x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16383 : S_.BroadcastsInDim S16383 (![] : Fin 0 → Fin S16383.rank)
  bcast_S16383_S16383x1_0 : S16383.BroadcastsInDim S16383x1 (![0] : Fin 1 → Fin S16383x1.rank)
  reducesTo_S16383x1024_S_d0_1 : S16383x1024.ReducesTo [0, 1] S_
  gather_S16384x1024_S16383x1_S16383x1024_1_0_n_n_0_1_11024_wf : GatherDims.WF S16384x1024 S16383x1 S16383x1024 [1] [0] [] [0] [] 1 ![1, 1024]

variable [Facts₀]

def gather_S16384x1024_S16383x1_S16383x1024_1_0_n_n_0_1_11024 : GatherDims S16384x1024 S16383x1 S16383x1024 where
  offsetDims := [1]
  collapsedSliceDims := [0]
  operandBatchingDims := []
  startIndicesBatchingDims := []
  startIndexMap := [0]
  indexVectorDim := 1
  sliceSizes := ![1, 1024]
  wf := gather_S16384x1024_S16383x1_S16383x1024_1_0_n_n_0_1_11024_wf

class Facts : Prop extends Facts₀ where

variable [Facts]
-- ==== Proof.CaseValues.lean ====
/-
  What one grid point leaves in the accumulator's staging buffer, in each of the body's two control cases, at any
  float instance. The body first zeroes the [1,1,1] accumulator when the column-block coordinate is 0, then reads the
  accumulator, adds the sum of the point's [2048,256] block of loss terms, and stores it back. So at the first
  column block of a row block the buffer ends at (zero block) + (block sum), and at every later one at
  (what the previous point left) + (block sum). Both are the body's one arithmetic payload, applied to the two input
  blocks and to the accumulator value it read.
-/
import proofs.«142338_j7730941132975_2_alg».proof.Defs
import proofs.«142338_j7730941132975_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem zero_off3 : (![0, 0, 0] : Fin 3 → Nat) = fun _ => 0 := funext fun a => by fin_cases a <;> rfl
theorem zero_off2 : (![0, 0] : Fin 2 → Nat) = fun _ => 0 := funext fun a => by fin_cases a <;> rfl

/-- A later column block: the buffer held `xo`; the one covering store writes the payload of the two input blocks
    and of `xo`, each read whole. -/
theorem later_point (c : Dev nD) (i : grid0.Coords) (a2 : Memref sig .tc .vmem S2048x256 .f32) (h2 : a2.IsWhole)
    (a3 : Memref sig .tc .vmem S2048x256 .f32) (h3 : a3.IsWhole) (a4 : Memref sig .tc .vmem S1x1x1 .f32) (h4 : a4.IsWhole)
    (hc : ¬cond0_0 i) (x0 x1 : Vec F S2048x256 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero zero_off3]
  simp only [View.readAt_eq_ld, h2.read_unread, h3.read_unread, h4.read_unread,
    View.ld_unit_zero (S := S2048x256) zero_off2, View.ld_unit_zero (S := S1x1x1) zero_off3]

/-- The first column block: the zero block is stored, read back, and the payload of the two input blocks and of that
    zero block is stored over it. -/
theorem first_point (c : Dev nD) (i : grid0.Coords) (a2 : Memref sig .tc .vmem S2048x256 .f32) (h2 : a2.IsWhole)
    (a3 : Memref sig .tc .vmem S2048x256 .f32) (h3 : a3.IsWhole) (a4 : Memref sig .tc .vmem S1x1x1 .f32) (h4 : a4.IsWhole)
    (hc : cond0_0 i) (x0 x1 : Vec F S2048x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) zero_off3, View.readCov_unit_zero (S := S1x1x1) _ zero_off3]
  simp only [View.readAt_eq_ld, h2.read_unread, h3.read_unread,
    View.ld_unit_zero (S := S2048x256) zero_off2]

end Cert.KernelIdeal.Acc

end
-- ==== Proof.LossSum.lean ====
/-
  The mathematics shared by the two programs, over the extended reals, with no program in sight.

  The loss term of one (logit, target) pair is  max x 0 + log(1 + e^(-|x|)) - x·y  with |x| = max x (-x).
  The reference spells the same number as logaddexp(0, x) - x·y: the larger of 0 and x, plus
  log(1 + e^(-|0 - x|)), guarded by a test "0 - x differs from itself" that never fires on a linear order.
  The two spellings agree for every extended real x, y: 0 - x = -x, negation is an involution, and max commutes.

  The kernel adds the terms tile by tile: row blocks p, column blocks n, rows r and lanes q inside a tile. Since
  addition of extended reals is commutative and associative, the tiled sum is the sum over the whole array: an
  index below a·b is uniquely r + b·p, one below c·d uniquely q + d·n.
-/
import Idealize.ShloMosaic.PureOps.Ideal.Laws
import Idealize.ShloMosaic.Lib.ValueIdx

noncomputable section

namespace Cert.LossSum

open Idealize.ShloMosaic Idealize.ShloMosaic.ValueIdx

/-- The loss term of one pair, as the kernel's body computes it. -/
def term (x y : EReal) : EReal := (max x 0 + Ideal.log1p (Ideal.exp (0 - max x (-x)))) - x * y

/-- No extended real differs from itself. -/
theorem never_differs (d : EReal) : Ideal.cmp .une d d = 0#1 := by
  simp [Ideal.cmp]

/-- The reference's spelling of the term — the guarded logaddexp(0, x), minus x·y — is the kernel's. -/
theorem guarded_logaddexp (x y : EReal) :
    Scalar.select (Ideal.cmp .une (0 - x) (0 - x)) (0 + x)
        (max 0 x + Ideal.log1p (Ideal.exp (-(max (0 - x) (-(0 - x)))))) - x * y = term x y := by
  rw [never_differs, select_zero]
  unfold term
  rw [zero_sub, neg_neg, zero_sub, max_comm 0 x, max_comm (-x) x]

/-- A sum over the indices below a·b, split into a blocks of b: the index r + b·p runs through all of them once. -/
theorem sum_blocks {M : Type*} [AddCommMonoid M] {a b : ℕ} (g : Fin (a * b) → M) :
    ∑ i, g i = ∑ p : Fin a, ∑ r : Fin b, g (finProdFinEquiv (p, r)) := by
  rw [← finProdFinEquiv.sum_comp g, Fintype.sum_prod_type]

/-- The sum over an [a·b, c·d] array is the sum over its a × c tiles of the sum inside each [b, d] tile. -/
theorem sum_tiles {M : Type*} [AddCommMonoid M] (a b c d : ℕ) (f : (⟨2, ![a * b, c * d]⟩ : Shape).Idx → M) :
    ∑ i, f i = ∑ p : Fin a, ∑ n : Fin c, ∑ r : Fin b, ∑ q : Fin d,
      f (ix2 (finProdFinEquiv (p, r)) (finProdFinEquiv (n, q))) :=
  calc ∑ i, f i = ∑ x : Fin (a * b), ∑ y : Fin (c * d), f (ix2 x y) := sum_idx2 f
    _ = ∑ p : Fin a, ∑ r : Fin b, ∑ y : Fin (c * d), f (ix2 (finProdFinEquiv (p, r)) y) := sum_blocks _
    _ = ∑ p : Fin a, ∑ r : Fin b, ∑ n : Fin c, ∑ q : Fin d,
          f (ix2 (finProdFinEquiv (p, r)) (finProdFinEquiv (n, q))) :=
        Finset.sum_congr rfl fun p _ => Finset.sum_congr rfl fun r _ => sum_blocks _
    _ = ∑ p : Fin a, ∑ n : Fin c, ∑ r : Fin b, ∑ q : Fin d,
          f (ix2 (finProdFinEquiv (p, r)) (finProdFinEquiv (n, q))) :=
        Finset.sum_congr rfl fun p _ => Finset.sum_comm

/-- The sum over a [b, 1] column is the sum over its b rows. -/
theorem sum_column {M : Type*} [AddCommMonoid M] {b : ℕ} (f : (⟨2, ![b, 1]⟩ : Shape).Idx → M) :
    ∑ i, f i = ∑ r : Fin b, f (ix2 r 0) := by
  rw [sum_idx2]
  exact Finset.sum_congr rfl fun r _ => Fin.sum_univ_one _

end Cert.LossSum

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.BlockSum.lean ====
/-
  The body's arithmetic at the extended reals: applied to a [2048,256] block of logits, the matching block of
  targets and the accumulator's value, it returns the accumulator's value plus the sum of the block's 2048·256 loss
  terms. The lane sum of row r is the sum over q of the term at (r, q); the cast to a column and the sum down the
  column add those row sums; the casts between [1], [1,1] and [1,1,1] move the one number along; both sums start
  from the zero word, which adds nothing.
-/
import proofs.«142338_j7730941132975_2_alg».proof.Defs
import proofs.«142338_j7730941132975_2_alg».proof.Proof.Gen.KernelIdeal.Skeleton
import proofs.«142338_j7730941132975_2_alg».proof.Proof.LossSum
import proofs.«142338_j7730941132975_2_alg».proof.Proof.LibRowOps
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSum

/-- Any index of a shape with one element sits at row-major position 0. -/
theorem pos_unit3 (j : S1x1x1.Idx) : (S1x1x1.rowMajor j).val = 0 := by
  rw [Shape.rowMajor_val_three]
  have h0 : (j 0).val < 1 := (j 0).isLt
  have h1 : (j 1).val < 1 := (j 1).isLt
  have h2 : (j 2).val < 1 := (j 2).isLt
  show ((j 0).val * 1 + (j 1).val) * 1 + (j 2).val = 0
  omega

/-- The accumulator's new value: its old value plus the sum of the block's loss terms. -/
theorem payload_apply (x0 x1 : Vec Ideal S2048x256 .f32) (acc : Vec Ideal S1x1x1 .f32) (j : S1x1x1.Idx) :
    k0_pay2 (F := Ideal) x0 x1 acc j = acc j + ∑ i : S2048x256.Idx, term (x0 i) (x1 i) := by
  unfold k0_pay2
  dsimp only
  rw [addf_apply, shapeCast_self]
  congr 1
  -- the casts [1,1] → [1,1,1] and [1] → [1,1]: one element, position 0 on both sides
  rw [shapeCast_apply _ shapeCasts_S1x1_S1x1x1 j (ix2 0 0) (by rw [pos_unit3, Shape.rowMajor_val_two]; rfl),
    shapeCast_apply _ shapeCasts_S1_S1x1 (ix2 0 0) (ix1 0) (by rw [Shape.rowMajor_val_one, Shape.rowMajor_val_two]; rfl)]
  -- the sum down the [2048,1] column, into the one-element shape: the sum over the whole column
  refine (Ideal.multiReduction_add_total _ _ reduces_S2048x1_S1 (fun b => by fin_cases b; rfl) _ _ (ix1 0)).trans ?_
  refine (sum_column (b := 2048) _).trans ?_
  refine Eq.trans ?_ (sum_idx2 (n0 := 2048) (n1 := 256) _).symm
  refine Finset.sum_congr rfl fun r _ => ?_
  -- row r of the column is the lane sum of row r
  refine (LibRowOps.cast_a_a1 (A := 2048) _ _ r 0).trans ?_
  refine (LibRowOps.sum_last2 (A := 2048) (B := 256) _ _ _ _ r).trans ?_
  refine Finset.sum_congr rfl fun q _ => ?_
  -- the pointwise operations at (r, q): the loss term, its two zeros the zero word
  show (max (x0 (ix2 r q)) (Ideal.ofBits .f32 0x00000000#32)
      + Ideal.log1p (Ideal.exp (Ideal.ofBits .f32 0x00000000#32 - max (x0 (ix2 r q)) (-(x0 (ix2 r q))))))
      - x0 (ix2 r q) * x1 (ix2 r q) = term (x0 (ix2 r q)) (x1 (ix2 r q))
  rw [Ideal.ofBits_zero_f32]
  rfl

end Cert.KernelIdeal.Acc

end
-- ==== Proof.RunningSum.lean ====
/-
  The accumulator point by point, at the extended reals. The 128 grid points run row block by row block, 64 column
  blocks each: point n is row block n / 64, column block n % 64. At a first column block the accumulator restarts
  from zero; at every other point it adds the point's block sum to what the point before left. So after point n it
  holds the sum of the block sums of the points 64·(n / 64), …, n — by induction on n.
-/
import proofs.«142338_j7730941132975_2_alg».proof.Defs
import proofs.«142338_j7730941132975_2_alg».proof.Proof.Gen.KernelIdeal.Frame
import proofs.«142338_j7730941132975_2_alg».proof.Proof.CaseValues
import proofs.«142338_j7730941132975_2_alg».proof.Proof.BlockSum
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSum

variable (m : (ℓ : Loc nD τ sig) → Buf (Elt Ideal) ℓ)

/-- The sum of the loss terms over the pair of input blocks of grid point `t`. -/
def blockSum (c : Dev nD) (t : Fin cfg0.N) : EReal :=
  ∑ i : S2048x256.Idx, term ((iblk m c 0 t : Vec Ideal S2048x256 .f32) i) ((iblk m c 1 t : Vec Ideal S2048x256 .f32) i)

/-- The same by the point's number; zero past the grid. -/
def blockSumAt (c : Dev nD) (k : ℕ) : EReal := if h : k < cfg0.N then blockSum m c ⟨k, h⟩ else 0

theorem blockSumAt_of_lt (c : Dev nD) (k : ℕ) (h : k < cfg0.N) : blockSumAt m c k = blockSum m c ⟨k, h⟩ := dif_pos h

/-- The block the reset stores is zero. -/
theorem reset_apply (j : S1x1x1.Idx) : k0_pay1 (F := Ideal) j = 0 := Ideal.ofBits_zero_f32

/-- After point n the accumulator holds the block sums of its row block's points up to n. -/
theorem outsAt_eq (c : Dev nD) : ∀ (n : ℕ) (h : n < cfg0.N) (j : S1x1x1.Idx),
    outsAt0 m c n h j = ∑ k ∈ Finset.range (n % 64 + 1), blockSumAt m c (64 * (n / 64) + k)
  | 0, h, j => by
    rw [outsAt0_A m c ⟨0, h⟩ rfl, first_point, payload_apply, reset_apply, zero_add]
    show blockSum m c ⟨0, h⟩ = ∑ k ∈ Finset.range 1, blockSumAt m c (64 * 0 + k)
    rw [Finset.sum_range_one, blockSumAt_of_lt m c _ h]
  | n + 1, h, j => by
    by_cases h0 : (n + 1) % 64 = 0
    · rw [outsAt0_A m c ⟨n + 1, h⟩ h0, first_point, payload_apply, reset_apply, zero_add, h0, Finset.sum_range_one]
      have e : 64 * ((n + 1) / 64) + 0 = n + 1 := by omega
      rw [e, blockSumAt_of_lt m c _ h]
      rfl
    · rw [outsAt0_B m c ⟨n + 1, h⟩ h0, later_point, payload_apply]
      show outsAt0 m c n _ j + blockSum m c ⟨n + 1, h⟩ = _
      rw [outsAt_eq c n _ j]
      have e1 : (n + 1) % 64 = n % 64 + 1 := by omega
      have e2 : (n + 1) / 64 = n / 64 := by omega
      have e3 : 64 * (n / 64) + (n % 64 + 1) = n + 1 := by omega
      rw [e1, e2, Finset.sum_range_succ _ (n % 64 + 1), e3, blockSumAt_of_lt m c _ h]

end Cert.KernelIdeal.Acc

end
-- ==== Proof.ResultArray.lean ====
/-
  The [2,1,1] array of partial sums after the region. The accumulator is written back at the last column block of
  each row block (the points 63 and 127), into entry (row block, 0, 0). What it holds there is the sum of the 64
  block sums of that row block. The two written entries are the whole array, so the array ends holding, at
  (p, 0, 0), the sum over the column blocks n of the block sum of point 64·p + n.
-/
import proofs.«142338_j7730941132975_2_alg».proof.Defs
import proofs.«142338_j7730941132975_2_alg».proof.Proof.Gen.KernelIdeal.Frame
import proofs.«142338_j7730941132975_2_alg».proof.Proof.RunningSum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSum

variable (m : (ℓ : Loc nD τ sig) → Buf (Elt Ideal) ℓ) (ρ : Dev nD → PrngReg)

/-- The output window's block index at point t: (t / 64, 0, 0) — decided once over the grid. -/
theorem out_index : ∀ t : Fin cfg0.N, win0_2.index t (0 : Fin 3) = t.val / 64
    ∧ win0_2.index t (1 : Fin 3) = 0 ∧ win0_2.index t (2 : Fin 3) = 0 :=
  (by decide +kernel : ∀ t : Fin grid0.N, _)

/-- Entry (p, 0, 0): the sum of the block sums of row block p's 64 points. -/
def partialSums (c : Dev nD) : S2x1x1.Idx → EReal :=
  fun i => ∑ k ∈ Finset.range 64, blockSumAt m c (64 * (i 0).val + k)

/-- The same as contents of the array of partial sums. -/
abbrev partials (c : Dev nD) : Buf (Elt Ideal) ((c : Thread nD τ).loc main_v0) := partialSums m c

/-- What a flushing point writes back is its entry of `partials`. -/
theorem flushed_eq (c : Dev nD) (t : Fin cfg0.N) (hf : (cfg0.win 2).flush t = true) :
    (dats m 0 c).flushed 2 t = ((cfg0.win 2).blk t).view.read (Elt Ideal) (partials m c) := by
  have h63 : t.val % 64 = 63 := (flush0_2 t).mp hf
  obtain ⟨e0, e1, e2⟩ := out_index t
  show (cfg0.win 2).cut (grid0.coords t) ((dats m 0 c).after 2 t) = _
  rw [after0_2]
  funext j
  show outsAt0 m c t.val t.isLt j
    = ∑ k ∈ Finset.range 64, blockSumAt m c (64 * ((((cfg0.win 2).blk t).view.emb j) 0).val + k)
  have hemb : ((((cfg0.win 2).blk t).view.emb j) 0).val = t.val / 64 := by
    show win0_2.index t (0 : Fin 3) * 1 + 1 * (j 0).val = _
    have hj : (j 0).val < 1 := (j 0).isLt
    omega
  rw [outsAt_eq m c t.val t.isLt j, h63, hemb]

/-- Every entry of the array is in the block of its row block's last point. -/
theorem cover (i : S2x1x1.Idx) :
    ∃ t : Fin cfg0.N, (cfg0.win 2).flush t = true ∧ i ∈ ((cfg0.win 2).blk t).view.set := by
  have hN : cfg0.N = 128 := N_0
  have h0 : (i 0).val < 2 := (i 0).isLt
  have h1 : (i 1).val < 1 := (i 1).isLt
  have h2 : (i 2).val < 1 := (i 2).isLt
  obtain ⟨t, ht⟩ : ∃ t : Fin cfg0.N, t.val = 64 * (i 0).val + 63 := ⟨⟨64 * (i 0).val + 63, by omega⟩, rfl⟩
  obtain ⟨e0, e1, e2⟩ := out_index t
  refine ⟨t, (flush0_2 t).mpr (by omega), ?_⟩
  show i ∈ ((View.whole main_v0).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 1 ≤ (i 2).val ∧ (i 2).val < win0_2.index t (2 : Fin 3) * 1 + 1
    omega

/-- So the array of partial sums ends at `partials`. -/
theorem final (c : Dev nD) : (dats m 0 c).arrAt 2 cfg0.N = partials m c :=
  (dats m 0 c).arrAt_eq_of_cover 2 (partials m c) (flushed_eq m c) (cover)

end Cert.KernelIdeal.Acc

end
-- ==== Proof.KernelRun.lean ====
/-
  The idealized kernel's run, read at its result. After the region the host sums the two partial sums, divides by
  the element count 2^26, and adds the regulariser: the penalty times one half of the sum of squared differences
  between the parameter rows the parent indices select and the rows the child indices select (an index below zero
  is first shifted up by the row count). The regulariser reads only the three arguments the region never touches,
  so it is one function of them; the mean reads the array of partial sums the region left.
-/
import proofs.«142338_j7730941132975_2_alg».proof.Defs
import proofs.«142338_j7730941132975_2_alg».proof.Proof.Gen.KernelIdeal.Frame
import proofs.«142338_j7730941132975_2_alg».proof.Proof.ResultArray
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Idealize.ShloMosaic.StableHlo

variable (m : (ℓ : Loc nD τ sig) → Buf (Elt Ideal) ℓ) (ρ : Dev nD → PrngReg)

/-- The rows of the parameter table an index vector selects, a negative index shifted up by 16384 first. -/
def rows (W : (⟨S16384x1024, .f32⟩ : BufTy).Contents (Elt Ideal)) (idx : (⟨S16383, .i32⟩ : BufTy).Contents (Elt Ideal)) :
    (⟨S16383x1024, .f32⟩ : BufTy).Contents (Elt Ideal) :=
  Host.gather gather_S16384x1024_S16383x1_S16383x1024_1_0_n_n_0_1_11024 W
    (broadcastInDim S16383x1 ![0] bcast_S16383_S16383x1_0
      (select (cmpi .slt idx (broadcastInDim S16383 ![] bcast_S_S16383 (constantI S_ 32 0#32)))
        (addi idx (broadcastInDim S16383 ![] bcast_S_S16383 (constantI S_ 32 16384#32))) idx))

/-- The regulariser: penalty · (1/2 · the sum of the squared row differences). -/
def regulariser (W : (⟨S16384x1024, .f32⟩ : BufTy).Contents (Elt Ideal)) (pidx cidx : (⟨S16383, .i32⟩ : BufTy).Contents (Elt Ideal)) :
    (⟨S_, .f32⟩ : BufTy).Contents (Elt Ideal) :=
  mulf (constant (F := Ideal) S_ .f32 0x358637BD#32) (mulf (constant (F := Ideal) S_ .f32 0x3F000000#32)
    (Host.reduceAdd (F := Ideal) (mulf (subf (rows W pidx) (rows W cidx)) (subf (rows W pidx) (rows W cidx)))
      (constant (F := Ideal) S_ .f32 0x00000000#32) reducesTo_S16383x1024_S_d0_1 h_S_))

/-- The mean of the loss terms from the array of partial sums: their sum from zero, over 2^26. -/
def meanOf (P : (⟨S2x1x1, .f32⟩ : BufTy).Contents (Elt Ideal)) : (⟨S_, .f32⟩ : BufTy).Contents (Elt Ideal) :=
  Host.divf (F := Ideal) (Host.reduceAdd (F := Ideal) P (constant (F := Ideal) S_ .f32 0x00000000#32) reducesTo_S2x1x1_S_d0_1_2 h_S_)
    (constant (F := Ideal) S_ .f32 0x4C800000#32)

/-- The mean plus the regulariser, of the array of partial sums and the three regulariser arguments. -/
def resultOf (P : (⟨S2x1x1, .f32⟩ : BufTy).Contents (Elt Ideal)) (W : (⟨S16384x1024, .f32⟩ : BufTy).Contents (Elt Ideal))
    (pidx cidx : (⟨S16383, .i32⟩ : BufTy).Contents (Elt Ideal)) : (⟨S_, .f32⟩ : BufTy).Contents (Elt Ideal) :=
  addf (F := Ideal) (s := S_) (φ := .f32) (meanOf P) (regulariser W pidx cidx)

/-- The kernel's result, as contents of its result buffer. -/
abbrev result (c : Dev nD) : Buf (Elt Ideal) ((c : Thread nD τ).loc main_v22) :=
  resultOf (partials m c) (m ((c : Thread nD τ).loc main_arg2)) (m ((c : Thread nD τ).loc main_arg3))
    (m ((c : Thread nD τ).loc main_arg4))

set_option maxRecDepth 8192 in
set_option maxHeartbeats 2000000 in
/-- What the host lines after the region leave at the result, given what the region left. -/
theorem tail_eq (c : Dev nD) : Pipeline.afterTail₀ cfgs (dats m) 0 (V0 m) [hostOps1] c main_v22 = result m c := by
  unfold Pipeline.afterTail₀
  show StableHlo.after hostOps1 _ (Proc.devRef .tc main_v22) = _
  after_results_simp
  have hP : Pipeline.withArrays (cfgs 0).spec c (V0 m c) (fun w => (dats m 0 c).arrAt w (cfgs 0).N) (Proc.devRef .tc main_v0)
      = partials m c :=
    (Pipeline.withArrays_arr spec0 launch0.win.arr_inj c _ _ 2).trans (final m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [hP, h2, h3, h4]
  rfl

/-- Every weakly fair execution of the idealized kernel terminates with its result at `result` and its arguments
    unchanged. -/
theorem run : θ_run defs (onTc (τ := τ) (main (F := Ideal))) ⟨m, fun _ => 0, ρ⟩ fun r => ∀ c : Dev nD,
      r.2.mem ((c.tc : Thread nD τ).loc main_v22) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v22 (Pipeline.mem_restRefs_of main_v22 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Acc

end
-- ==== Proof.TileSums.lean ====
/-
  The two partial sums add up to the sum of the loss terms over the whole [4096,16384] arrays. The input window of
  point t = 64·p + n is the tile at rows 2048·p … 2048·p + 2047 and columns 256·n … 256·n + 255 of each argument, so
  the block sum of that point is the sum of the terms over that tile; the partial sum of row block p collects its 64
  tiles, and the 2 × 64 tiles tile the array.
-/
import proofs.«142338_j7730941132975_2_alg».proof.Defs
import proofs.«142338_j7730941132975_2_alg».proof.Proof.Gen.KernelIdeal.Frame
import proofs.«142338_j7730941132975_2_alg».proof.Proof.ResultArray
import proofs.«142338_j7730941132975_2_alg».proof.Proof.LossSum
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSum

variable (m : (ℓ : Loc nD τ sig) → Buf (Elt Ideal) ℓ)

/-- The logits and the targets as the kernel was launched with them. -/
abbrev logits (c : Dev nD) : S4096x16384.Idx → EReal := m ((c : Thread nD τ).loc main_arg0)
abbrev targets (c : Dev nD) : S4096x16384.Idx → EReal := m ((c : Thread nD τ).loc main_arg1)

/-- The input windows' block indices at point t: (t / 64, t % 64) — decided once over the grid. -/
theorem in_index : ∀ t : Fin cfg0.N, win0_0.index t (0 : Fin 2) = t.val / 64 ∧ win0_0.index t (1 : Fin 2) = t.val % 64
    ∧ win0_1.index t (0 : Fin 2) = t.val / 64 ∧ win0_1.index t (1 : Fin 2) = t.val % 64 :=
  (by decide +kernel : ∀ t : Fin grid0.N, _)

/-- Entry (r, q) of the logits' block at point 64·p + n is the logit at row r + 2048·p, column q + 256·n. -/
theorem logits_block (c : Dev nD) (t : Fin cfg0.N) (p : Fin 2) (n : Fin 64) (ht : t.val = 64 * p.val + n.val)
    (r : Fin 2048) (q : Fin 256) :
    (iblk m c 0 t : Vec Ideal S2048x256 .f32) (ix2 r q)
      = logits m c (ix2 (finProdFinEquiv (p, r)) (finProdFinEquiv (n, q))) := by
  obtain ⟨e0, e1, -, -⟩ := in_index t
  have hn := n.isLt
  unfold iblk
  rw [View.read_apply]
  show V m c main_arg0 _ = m ((c : Thread nD τ).loc main_arg0) _
  unfold V
  congr 1
  funext a
  apply Fin.ext
  match a with
  | ⟨0, _⟩ => show win0_0.index t (0 : Fin 2) * 2048 + 1 * r.val = r.val + 2048 * p.val; omega
  | ⟨1, _⟩ => show win0_0.index t (1 : Fin 2) * 256 + 1 * q.val = q.val + 256 * n.val; omega

/-- The same for the targets. -/
theorem targets_block (c : Dev nD) (t : Fin cfg0.N) (p : Fin 2) (n : Fin 64) (ht : t.val = 64 * p.val + n.val)
    (r : Fin 2048) (q : Fin 256) :
    (iblk m c 1 t : Vec Ideal S2048x256 .f32) (ix2 r q)
      = targets m c (ix2 (finProdFinEquiv (p, r)) (finProdFinEquiv (n, q))) := by
  obtain ⟨-, -, e0, e1⟩ := in_index t
  have hn := n.isLt
  unfold iblk
  rw [View.read_apply]
  show V m c main_arg1 _ = m ((c : Thread nD τ).loc main_arg1) _
  unfold V
  congr 1
  funext a
  apply Fin.ext
  match a with
  | ⟨0, _⟩ => show win0_1.index t (0 : Fin 2) * 2048 + 1 * r.val = r.val + 2048 * p.val; omega
  | ⟨1, _⟩ => show win0_1.index t (1 : Fin 2) * 256 + 1 * q.val = q.val + 256 * n.val; omega

/-- The block sum of point 64·p + n is the sum of the terms over tile (p, n). -/
theorem blockSum_tile (c : Dev nD) (p : Fin 2) (n : Fin 64) (h : 64 * p.val + n.val < cfg0.N) :
    blockSum m c ⟨64 * p.val + n.val, h⟩ = ∑ r : Fin 2048, ∑ q : Fin 256,
      term (logits m c (ix2 (finProdFinEquiv (p, r)) (finProdFinEquiv (n, q))))
        (targets m c (ix2 (finProdFinEquiv (p, r)) (finProdFinEquiv (n, q)))) := by
  unfold blockSum
  refine (sum_idx2 (n0 := 2048) (n1 := 256) _).trans ?_
  refine Finset.sum_congr rfl fun r _ => Finset.sum_congr rfl fun q _ => ?_
  rw [logits_block m c _ p n rfl r q, targets_block m c _ p n rfl r q]

/-- An entry of the [2,1,1] array is named by its row block. -/
def rowBlock : S2x1x1.Idx ≃ Fin 2 where
  toFun i := i 0
  invFun p := ix3 p 0 0
  left_inv i := by
    funext a
    match a with
    | ⟨0, _⟩ => rfl
    | ⟨1, _⟩ => exact Fin.ext (by show 0 = (i 1).val; have h : (i 1).val < 1 := (i 1).isLt; omega)
    | ⟨2, _⟩ => exact Fin.ext (by show 0 = (i 2).val; have h : (i 2).val < 1 := (i 2).isLt; omega)
  right_inv _ := rfl

/-- The partial sums add up to the sum of the terms over the whole arrays. -/
theorem sum_partials (c : Dev nD) :
    ∑ i : S2x1x1.Idx, partialSums m c i = ∑ j : S4096x16384.Idx, term (logits m c j) (targets m c j) := by
  have hN : cfg0.N = 128 := N_0
  refine (Equiv.sum_comp rowBlock.symm (partialSums m c)).symm.trans ?_
  refine Eq.trans ?_ (sum_tiles 2 2048 64 256 (fun j => term (logits m c j) (targets m c j))).symm
  refine Finset.sum_congr rfl fun p _ => ?_
  show ∑ k ∈ Finset.range 64, blockSumAt m c (64 * p.val + k) = _
  rw [Finset.sum_range]
  refine Finset.sum_congr rfl fun n _ => ?_
  have h : 64 * p.val + n.val < cfg0.N := by have := p.isLt; have := n.isLt; omega
  rw [blockSumAt_of_lt m c _ h]
  exact blockSum_tile m c p n h

end Cert.KernelIdeal.Acc

end
-- ==== Proof.RefSum.lean ====
/-
  The reference's mean term, read at the extended reals: each element of its [4096,16384] array of loss terms is the
  guarded logaddexp(0, x) minus x·y — the kernel's term — and its sum over both axes from the zero word is the sum of
  the terms over the whole arrays.
-/
import proofs.«142338_j7730941132975_2_alg».proof.Defs
import proofs.«142338_j7730941132975_2_alg».proof.Proof.Gen.ReferenceIdeal.Read
import proofs.«142338_j7730941132975_2_alg».proof.Proof.LossSum
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Read Cert.LossSum

/-- One element of the reference's array of loss terms is the loss term of the pair at that index. -/
theorem term_apply (x0 x1 : (⟨S4096x16384, .f32⟩ : BufTy).Contents (Elt Ideal)) (i : S4096x16384.Idx) :
    val_main_v14 (F := Ideal) x0 x1 i = term (x0 i) (x1 i) := by
  simp only [val_main_v14_apply, val_main_v12_apply, val_main_v13_apply, val_main_v4_apply, val_main_v6_apply,
    val_main_v11_apply, val_main_v1_apply, val_main_v10_apply, val_main_v9_apply, val_main_v8_apply,
    val_main_v7_apply, val_main_v3_apply, val_main_v0_apply, val_main_v2_apply, val_main_v5_apply, val_main_cst_apply,
    Ideal.subf_def, Ideal.addf_def, Ideal.mulf_def, Ideal.maximumf_def, Ideal.cmpf_def, Ideal.hostUnary_exp_def,
    Ideal.hostUnary_log1p_def, Ideal.hostNegf_def, Ideal.hostAbsf_def, Ideal.negf_def, Ideal.absf_def, Ideal.ofBits_def,
    Ideal.ofBits_zero_f32]
  exact guarded_logaddexp (x0 i) (x1 i)

/-- The reference's sum of its terms, from zero: the sum of the loss terms over the whole arrays. -/
theorem sum_eq (x0 x1 : (⟨S4096x16384, .f32⟩ : BufTy).Contents (Elt Ideal)) :
    val_main_v15 (F := Ideal) x0 x1 = fun _ => ∑ j : S4096x16384.Idx, term (x0 j) (x1 j) := by
  funext i
  rw [val_main_v15_apply, val_main_cst_0_apply]
  simp only [Ideal.ofBits_def, Ideal.ofBits_zero_f32, zero_add]
  exact Finset.sum_congr rfl fun j _ => term_apply x0 x1 j

end Cert.ReferenceIdeal.RefValue

end
-- ==== Proof.Bridge.lean ====
/-
  The two programs compute one number. The kernel's mean is the sum of its two partial sums from zero, over 2^26;
  the partial sums add up to the sum of the loss terms over the whole arrays, which is the reference's numerator;
  the divisor is the same word, and the regulariser is the same operations of the same three arguments on both
  sides. So the reference's result, as a function of the five arguments, is the kernel's result of the array of
  partial sums the region leaves.
-/
import proofs.«142338_j7730941132975_2_alg».proof.Defs
import proofs.«142338_j7730941132975_2_alg».proof.Proof.KernelRun
import proofs.«142338_j7730941132975_2_alg».proof.Proof.TileSums
import proofs.«142338_j7730941132975_2_alg».proof.Proof.RefSum
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.LossSum

variable (m : (ℓ : Loc nD τ sig) → Buf (Elt Ideal) ℓ)

/-- The sum of the partial sums from the zero word is the sum of the loss terms over the whole arrays. -/
theorem total_eq (c : Dev nD) :
    Host.reduceAdd (F := Ideal) (partials m c) (constant (F := Ideal) S_ .f32 0x00000000#32) reducesTo_S2x1x1_S_d0_1_2 h_S_
      = fun _ => ∑ j : S4096x16384.Idx, term (logits m c j) (targets m c j) := by
  funext i
  simp only [Host.reduceAdd, Ideal.hostReduceAdd_def]
  refine (Ideal.hostReduceAdd_total reducesTo_S2x1x1_S_d0_1_2 (fun b => b.elim0) (partials m c) _ i).trans ?_
  show Ideal.ofBits .f32 0x00000000#32 + ∑ i : S2x1x1.Idx, partialSums m c i = _
  rw [Ideal.ofBits_zero_f32, zero_add, sum_partials]

end Cert.KernelIdeal.Acc

namespace Cert.Bridge

open Cert.LossSum

variable [Cert.KernelIdeal.Facts] [Cert.ReferenceIdeal.Facts]

/-- The reference's result of the five arguments is the kernel's result of any array of partial sums whose sum from
    zero is the sum of the loss terms over the first two arguments. -/
theorem result_eq (x0 x1 : (⟨Cert.ReferenceIdeal.S4096x16384, .f32⟩ : BufTy).Contents (Elt Ideal))
    (x2 : (⟨Cert.ReferenceIdeal.S16384x1024, .f32⟩ : BufTy).Contents (Elt Ideal))
    (x3 x4 : (⟨Cert.ReferenceIdeal.S16383, .i32⟩ : BufTy).Contents (Elt Ideal))
    (P : (⟨Cert.KernelIdeal.S2x1x1, .f32⟩ : BufTy).Contents (Elt Ideal))
    (hP : Host.reduceAdd (F := Ideal) P (constant (F := Ideal) Cert.KernelIdeal.S_ .f32 0x00000000#32)
        Cert.KernelIdeal.Facts₀.reducesTo_S2x1x1_S_d0_1_2 Cert.KernelIdeal.Facts₀.h_S_
      = fun _ => ∑ j : Cert.ReferenceIdeal.S4096x16384.Idx, term (x0 j) (x1 j)) :
    Cert.ReferenceIdeal.Read.val_main_v36 (F := Ideal) x0 x1 x2 x3 x4 = Cert.KernelIdeal.Acc.resultOf P x2 x3 x4 := by
  unfold Cert.KernelIdeal.Acc.resultOf Cert.KernelIdeal.Acc.meanOf
  rw [hP]
  unfold Cert.ReferenceIdeal.Read.val_main_v36 Cert.ReferenceIdeal.Read.val_main_v16
  rw [Cert.ReferenceIdeal.RefValue.sum_eq]
  rfl

end Cert.Bridge

end
-- ==== Proof.lean ====
/-
  A binary cross-entropy with logits, averaged over a [4096,16384] batch, plus a small regulariser on a parameter
  table: the kernel against its reference, over the extended reals.

  The kernel sums the loss terms  max x 0 + log(1 + e^(-|x|)) - x·y  tile by tile — 2 row blocks × 64 column blocks of
  [2048,256] — into one accumulator per row block, restarted at the first column block and written out after the
  last; the host then adds the two partial sums, divides by 2^26 and adds the regulariser. The reference computes
  logaddexp(0, x) - x·y everywhere, sums over both axes, divides by the same 2^26 and adds the same regulariser.

  The two agree because (i) the two spellings of the loss term are one extended real for every x and y
  (LossSum.guarded_logaddexp), (ii) addition of extended reals is commutative and associative, so the tiled sum is
  the whole sum (LossSum.sum_tiles; no finiteness is used, and the precondition is never opened), and (iii) the
  divisor and the regulariser are the same operations of the same arguments on both sides.

  The modules: CaseValues (what one grid point leaves in the accumulator, per control case), BlockSum (the body's
  arithmetic as accumulator + sum of the block's terms), RunningSum (the accumulator point by point, by induction),
  ResultArray (the array of partial sums after the region), KernelRun (the host lines after the region; the kernel's
  run read at its result), TileSums (the partial sums add up to the whole sum), RefSum (the reference's numerator),
  Bridge (the two results are one function). The three frames are the generated ones; the idealized kernel is the kernel's own text
  read over the extended reals, with no operation rewritten, so the idealization conjunct is trivial.
-/
import proofs.«142338_j7730941132975_2_alg».proof.Defs
import proofs.«142338_j7730941132975_2_alg».proof.Proof.Gen.Kernel
import proofs.«142338_j7730941132975_2_alg».proof.Proof.Gen.Kernel.Skeleton
import proofs.«142338_j7730941132975_2_alg».proof.Proof.Gen.Kernel.Launch
import proofs.«142338_j7730941132975_2_alg».proof.Proof.Gen.Kernel.Points
import proofs.«142338_j7730941132975_2_alg».proof.Proof.Gen.Kernel.Frame
import proofs.«142338_j7730941132975_2_alg».proof.Proof.Gen.KernelIdeal
import proofs.«142338_j7730941132975_2_alg».proof.Proof.Gen.KernelIdeal.Skeleton
import proofs.«142338_j7730941132975_2_alg».proof.Proof.Gen.KernelIdeal.Launch
import proofs.«142338_j7730941132975_2_alg».proof.Proof.Gen.KernelIdeal.Points
import proofs.«142338_j7730941132975_2_alg».proof.Proof.Gen.KernelIdeal.Frame
import proofs.«142338_j7730941132975_2_alg».proof.Proof.Gen.ReferenceIdeal
import proofs.«142338_j7730941132975_2_alg».proof.Proof.Gen.Pre_finite_inputs
import proofs.«142338_j7730941132975_2_alg».proof.Proof.Gen.ReferenceIdeal.Run
import proofs.«142338_j7730941132975_2_alg».proof.Proof.Gen.ReferenceIdeal.Read
import proofs.«142338_j7730941132975_2_alg».proof.Proof.Bridge
import Idealize.ShloMosaic.Adequacy
import Idealize.ShloMosaic.Init

noncomputable section

namespace Cert.Proof

open Idealize.ShloMosaic Idealize.SL.Sem

/-- The word-level kernel runs and leaves its arguments as they were. -/
theorem frame_kernel [Cert.Kernel.Facts] [Cert.Pre_finite_inputs.Facts] : Cert.frame_Kernel :=
  fun m ρ _ => Cert.Kernel.Gen.frame m ρ

/-- So does the idealized kernel. -/
theorem frame_kernelIdeal [Cert.KernelIdeal.Facts] [Cert.Pre_finite_inputs.Facts] : Cert.frame_KernelIdeal :=
  fun m ρ _ => Cert.KernelIdeal.Gen.frame m ρ

/-- And the reference: its run, with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- The idealization rewrote no operation. -/
theorem preserves : Cert.preserves_Kernel_KernelIdeal := trivial

/-- From memories that agree on the five arguments both programs end with the same result: the kernel's, read off its
    run; the reference's run ends at its composed term, which is that result (Bridge.result_eq, with the partial sums
    adding up to the whole sum). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v36_eq _ _ _ _ _).trans ?_
  rw [(hagree c).1, (hagree c).2.1, (hagree c).2.2.1, (hagree c).2.2.2.1, (hagree c).2.2.2.2]
  exact Cert.Bridge.result_eq _ _ _ _ _ _ (Cert.KernelIdeal.Acc.total_eq m c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
